-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S32x32 : Shape := ⟨2, ![32, 32]⟩
abbrev S16x4096 : Shape := ⟨2, ![16, 4096]⟩
abbrev S4096x16 : Shape := ⟨2, ![4096, 16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S32x32 : S_.BroadcastsInDim S32x32 (![] : Fin 0 → Fin S32x32.rank)
  reducesTo_S32x32_S_d0_1 : S32x32.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_

variable [Facts]

def fn_part1 {F : FTy → Type} [FloatOps F] (main_arg4 : FVec F S4096x16 .f32) (main_v13 : IVec S_ 1) (main_v16 : IVec S16x4096 1) : IVec S_ 1 :=
  let main_c_5 : IVec S_ 1 := constantI S_ 1 1#1
  let main_v17 : IVec S_ 1 := (fun x v => Host.reduce IntOp.andi x v reducesTo_S16x4096_S_d0_1 h_S_) main_v16 main_c_5
  let main_v18 : IVec S_ 1 := andi main_v13 main_v17
  let main_v19 : FVec F S4096x16 .f32 := Host.absf main_arg4
  let main_cst_6 : FVec F S_ .f32 := constant S_ .f32 0x7F800000#32
  let main_v20 : FVec F S4096x16 .f32 := broadcastInDim S4096x16 ![] bcast_S_S4096x16 main_cst_6
  let main_v21 : IVec S4096x16 1 := cmpf .olt main_v19 main_v20
  let main_c_7 : IVec S_ 1 := constantI S_ 1 1#1
  let main_v22 : IVec S_ 1 := (fun x v => Host.reduce IntOp.andi x v reducesTo_S4096x16_S_d0_1 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S32x32 .f32) (main_arg3 : FVec F S16x4096 .f32) (main_arg4 : FVec F S4096x16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S16x4096 .f32 := Host.absf main_arg3
  let main_cst_4 : FVec F S_ .f32 := constant S_ .f32 0x7F800000#32
  let main_v15 : FVec F S16x4096 .f32 := broadcastInDim S16x4096 ![] bcast_S_S16x4096 main_cst_4
  let main_v16 : IVec S16x4096 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S32x32 : Shape := ⟨2, ![32, 32]⟩
abbrev S16x4096 : Shape := ⟨2, ![16, 4096]⟩
abbrev S4096x16 : Shape := ⟨2, ![4096, 16]⟩
abbrev S8192x4096 : Shape := ⟨2, ![8192, 4096]⟩
abbrev S32x128x32 : Shape := ⟨3, ![32, 128, 32]⟩
abbrev S4096x32 : Shape := ⟨2, ![4096, 32]⟩
abbrev S4096x32x128 : Shape := ⟨3, ![4096, 32, 128]⟩
abbrev S8192x16 : Shape := ⟨2, ![8192, 16]⟩
abbrev S2048x512 : Shape := ⟨2, ![2048, 512]⟩
abbrev S512x512 : Shape := ⟨2, ![512, 512]⟩
abbrev S2048x16 : Shape := ⟨2, ![2048, 16]⟩
abbrev S512x16 : Shape := ⟨2, ![512, 16]⟩

abbrev nBuf : Space → Nat
  | .hbm => 19
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S32x32, .f32⟩
  | .hbm, ⟨3, _⟩ => ⟨S16x4096, .f32⟩
  | .hbm, ⟨4, _⟩ => ⟨S4096x16, .f32⟩
  | .hbm, ⟨5, _⟩ => ⟨S8192x4096, .f32⟩
  | .hbm, ⟨6, _⟩ => ⟨S8192x4096, .bf16⟩
  | .hbm, ⟨7, _⟩ => ⟨S32x128x32, .f32⟩
  | .hbm, ⟨8, _⟩ => ⟨S4096x32, .f32⟩
  | .hbm, ⟨9, _⟩ => ⟨S4096x32x128, .f32⟩
  | .hbm, ⟨10, _⟩ => ⟨S4096x4096, .f32⟩
  | .hbm, ⟨11, _⟩ => ⟨S4096x4096, .f32⟩
  | .hbm, ⟨12, _⟩ => ⟨S4096x4096, .bf16⟩
  | .hbm, ⟨13, _⟩ => ⟨S16x4096, .bf16⟩
  | .hbm, ⟨14, _⟩ => ⟨S4096x16, .bf16⟩
  | .hbm, ⟨15, _⟩ => ⟨S8192x16, .f32⟩
  | .hbm, ⟨16, _⟩ => ⟨S8192x16, .bf16⟩
  | .hbm, ⟨17, _⟩ => ⟨S8192x4096, .f32⟩
  | .hbm, ⟨18, _⟩ => ⟨S4x2048x4096, .f32⟩
  | .local _ .vmem, ⟨0, _⟩ => ⟨S2048x512, .bf16⟩
  | .local _ .vmem, ⟨1, _⟩ => ⟨S2048x512, .bf16⟩
  | .local _ .vmem, ⟨2, _⟩ => ⟨S512x512, .bf16⟩
  | .local _ .vmem, ⟨3, _⟩ => ⟨S512x512, .bf16⟩
  | .local _ .vmem, ⟨4, _⟩ => ⟨S2048x16, .bf16⟩
  | .local _ .vmem, ⟨5, _⟩ => ⟨S2048x16, .bf16⟩
  | .local _ .vmem, ⟨6, _⟩ => ⟨S512x16, .bf16⟩
  | .local _ .vmem, ⟨7, _⟩ => ⟨S512x16, .bf16⟩
  | .local _ .vmem, ⟨8, _⟩ => ⟨S2048x512, .f32⟩
  | .local _ .vmem, ⟨9, _⟩ => ⟨S2048x512, .f32⟩
  | .local _ .vmem, ⟨10, _⟩ => ⟨S2048x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S512x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  bitsLt_bf16_f32 : FTy.bits .bf16 < FTy.bits .f32
  bcast_S32x32_S32x128x32_0_2 : S32x32.BroadcastsInDim S32x128x32 (![0, 2] : Fin 2 → Fin S32x128x32.rank)
  shapeCasts_S32x128x32_S4096x32 : S32x128x32.ShapeCasts S4096x32
  bcast_S4096x32_S4096x32x128_0_1 : S4096x32.BroadcastsInDim S4096x32x128 (![0, 1] : Fin 2 → Fin S4096x32x128.rank)
  shapeCasts_S4096x32x128_S4096x4096 : S4096x32x128.ShapeCasts S4096x4096
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S512x16_S512x16_0_0 : ∀ a, (![0, 0] : Fin 2 → Nat) a + S512x16.size a ≤ S512x16.size a
  h_S512x16 : 0 < S512x16.numel
  shapeCasts_S512x16_S512x16 : S512x16.ShapeCasts S512x16
  shapeCasts_S8192x4096_S4x2048x4096 : S8192x4096.ShapeCasts S4x2048x4096
  dot_S8192x4096_S16x4096_S8192x16_1_1_0_0_n_n_wf : DotDims.WF S8192x4096 S16x4096 S8192x16 [1] [1] [0] [0] [] []
  dot_S2048x512_S512x512_S2048x512_1_1_0_0_n_n_wf : DotDims.WF S2048x512 S512x512 S2048x512 [1] [1] [0] [0] [] []
  dot_S2048x16_S512x16_S2048x512_1_1_0_0_n_n_wf : DotDims.WF S2048x16 S512x16 S2048x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .bf16 = 32 ∨ (Rect.block (s := S8192x4096) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x4096.size a
  hwx0_1 : ∀ i : grid0.Coords, EltTy.bits .bf16 = 32 ∨ (Rect.block (s := S4096x4096) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x16.size a ≤ S8192x16.size a
  hwx0_2 : ∀ i : grid0.Coords, EltTy.bits .bf16 = 32 ∨ (Rect.block (s := S8192x16) S2048x16.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x16.size a ≤ S4096x16.size a
  hwx0_3 : ∀ i : grid0.Coords, EltTy.bits .bf16 = 32 ∨ (Rect.block (s := S4096x16) S512x16.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x512.size a ≤ S8192x4096.size a
  hwx0_4 : ∀ i : grid0.Coords, EltTy.bits .f32 = 32 ∨ (Rect.block (s := S8192x4096) S2048x512.size (cc0_transform_4 i) (hinb0_4 i)).WholeWords (EltTy.packing .f32)

variable [Facts₀]

def dot_S8192x4096_S16x4096_S8192x16_1_1_0_0_n_n : DotDims S8192x4096 S16x4096 S8192x16 where
  lhsContracting := [1]
  rhsContracting := [1]
  lhsNonContracting := [0]
  rhsNonContracting := [0]
  lhsBatch := []
  rhsBatch := []
  wf := dot_S8192x4096_S16x4096_S8192x16_1_1_0_0_n_n_wf
def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf
def dot_S2048x16_S512x16_S2048x512_1_1_0_0_n_n : DotDims S2048x16 S512x16 S2048x512 where
  lhsContracting := [1]
  rhsContracting := [1]
  lhsNonContracting := [0]
  rhsNonContracting := [0]
  lhsBatch := []
  rhsBatch := []
  wf := dot_S2048x16_S512x16_S2048x512_1_1_0_0_n_n_wf

abbrev win0_0 : Pipeline.Window sig grid0 :=
  Pipeline.Window.ofSpec (Memref.whole main_v1) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2048x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S512x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S2048x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S32x32 : Shape := ⟨2, ![32, 32]⟩
abbrev S16x4096 : Shape := ⟨2, ![16, 4096]⟩
abbrev S4096x16 : Shape := ⟨2, ![4096, 16]⟩
abbrev S32x128x32 : Shape := ⟨3, ![32, 128, 32]⟩
abbrev S4096x32 : Shape := ⟨2, ![4096, 32]⟩
abbrev S4096x32x128 : Shape := ⟨3, ![4096, 32, 128]⟩
abbrev S4x2048x16 : Shape := ⟨3, ![4, 2048, 16]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S32x32, .f32⟩
  | .hbm, ⟨3, _⟩ => ⟨S16x4096, .f32⟩
  | .hbm, ⟨4, _⟩ => ⟨S4096x16, .f32⟩
  | .hbm, ⟨5, _⟩ => ⟨S32x128x32, .f32⟩
  | .hbm, ⟨6, _⟩ => ⟨S4096x32, .f32⟩
  | .hbm, ⟨7, _⟩ => ⟨S4096x32x128, .f32⟩
  | .hbm, ⟨8, _⟩ => ⟨S4096x4096, .f32⟩
  | .hbm, ⟨9, _⟩ => ⟨S4096x4096, .f32⟩
  | .hbm, ⟨10, _⟩ => ⟨S4x2048x4096, .f32⟩
  | .hbm, ⟨11, _⟩ => ⟨S4x2048x16, .f32⟩
  | .hbm, ⟨12, _⟩ => ⟨S4x2048x4096, .f32⟩
  | .hbm, ⟨13, _⟩ => ⟨S_, .f32⟩
  | .hbm, ⟨14, _⟩ => ⟨S4x2048x4096, .f32⟩
  | .hbm, ⟨15, _⟩ => ⟨S4x2048x4096, .f32⟩
  | .hbm, ⟨16, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S32x32_S32x128x32_0_2 : S32x32.BroadcastsInDim S32x128x32 (![0, 2] : Fin 2 → Fin S32x128x32.rank)
  shapeCasts_S32x128x32_S4096x32 : S32x128x32.ShapeCasts S4096x32
  bcast_S4096x32_S4096x32x128_0_1 : S4096x32.BroadcastsInDim S4096x32x128 (![0, 1] : Fin 2 → Fin S4096x32x128.rank)
  shapeCasts_S4096x32x128_S4096x4096 : S4096x32x128.ShapeCasts S4096x4096
  bcast_S_S4x2048x4096 : S_.BroadcastsInDim S4x2048x4096 (![] : Fin 0 → Fin S4x2048x4096.rank)
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.Pieces.lean ====
/-
  What one run of the kernel body leaves behind, in each of its three control cases, as values.

  The body keeps a [2048,512] accumulator between grid points. At the first step of a contraction sweep it stores
  the zero block and then the zero block plus the product of the two loaded blocks; at a middle step it stores what the
  accumulator held plus that product; at the last step it does the same and then stores, into the output block, the new
  accumulator plus twice the low-rank product. Each store covers its whole buffer, so what a buffer holds afterwards
  is the last value stored into it, and a load that follows a covering store reads that value back.
-/
import proofs.«115246_j26422638805106_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- First step of a sweep: the accumulator ends at the step applied to the zero block. -/
theorem acc_first (c : Dev nD) (i : grid0.Coords) (arg3 : Memref sig .tc .vmem S2048x512 .bf16) (harg3 : arg3.IsWhole) (arg4 : Memref sig .tc .vmem S512x512 .bf16) (harg4 : arg4.IsWhole) (arg5 : Memref sig .tc .vmem S2048x16 .bf16) (harg5 : arg5.IsWhole) (arg6 : Memref sig .tc .vmem S512x16 .bf16) (harg6 : arg6.IsWhole) (arg7 : Memref sig .tc .vmem S2048x512 .f32) (harg7 : arg7.IsWhole) (arg8 : Memref sig .tc .vmem S2048x512 .f32) (harg8 : arg8.IsWhole) (hc0 : cond0_0 i) (hc1 : ¬cond0_1 i)
    (x0 : Vec F S2048x512 .bf16) (x1 : Vec F S512x512 .bf16) (x2 : Vec F S2048x16 .bf16) (x3 : Vec F S512x16 .bf16) :
    sout0_A_0 c i arg3 harg3 arg4 harg4 arg5 harg5 arg6 harg6 arg7 harg7 arg8 harg8 hc0 hc1 x0 x1 x2 x3 = k0_pay2 x0 x1 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S2048x512) hz, View.readCov_unit_zero (S := S2048x512) _ hz]
  simp only [View.readAt_eq_ld, harg3.read_unread, harg4.read_unread, View.ld_unit_zero (S := S2048x512) hz,
    View.ld_unit_zero (S := S512x512) hz]

/-- A middle step: the accumulator ends at the step applied to what it held. -/
theorem acc_middle (c : Dev nD) (i : grid0.Coords) (arg3 : Memref sig .tc .vmem S2048x512 .bf16) (harg3 : arg3.IsWhole) (arg4 : Memref sig .tc .vmem S512x512 .bf16) (harg4 : arg4.IsWhole) (arg5 : Memref sig .tc .vmem S2048x16 .bf16) (harg5 : arg5.IsWhole) (arg6 : Memref sig .tc .vmem S512x16 .bf16) (harg6 : arg6.IsWhole) (arg7 : Memref sig .tc .vmem S2048x512 .f32) (harg7 : arg7.IsWhole) (arg8 : Memref sig .tc .vmem S2048x512 .f32) (harg8 : arg8.IsWhole) (hc0 : ¬cond0_0 i) (hc1 : ¬cond0_1 i)
    (x0 : Vec F S2048x512 .bf16) (x1 : Vec F S512x512 .bf16) (x2 : Vec F S2048x16 .bf16) (x3 : Vec F S512x16 .bf16) (xs0 : Vec F S2048x512 .f32) :
    sout0_B_0 c i arg3 harg3 arg4 harg4 arg5 harg5 arg6 harg6 arg7 harg7 arg8 harg8 hc0 hc1 x0 x1 x2 x3 xs0 = k0_pay2 x0 x1 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  rw [View.canon_unit_zero hz]
  simp only [View.readAt_eq_ld, harg3.read_unread, harg4.read_unread, harg8.read_unread, View.ld_unit_zero (S := S2048x512) hz,
    View.ld_unit_zero (S := S512x512) hz]

/-- The last step: the accumulator again ends at the step applied to what it held, -/
theorem acc_last (c : Dev nD) (i : grid0.Coords) (arg3 : Memref sig .tc .vmem S2048x512 .bf16) (harg3 : arg3.IsWhole) (arg4 : Memref sig .tc .vmem S512x512 .bf16) (harg4 : arg4.IsWhole) (arg5 : Memref sig .tc .vmem S2048x16 .bf16) (harg5 : arg5.IsWhole) (arg6 : Memref sig .tc .vmem S512x16 .bf16) (harg6 : arg6.IsWhole) (arg7 : Memref sig .tc .vmem S2048x512 .f32) (harg7 : arg7.IsWhole) (arg8 : Memref sig .tc .vmem S2048x512 .f32) (harg8 : arg8.IsWhole) (hc0 : ¬cond0_0 i) (hc1 : cond0_1 i)
    (x0 : Vec F S2048x512 .bf16) (x1 : Vec F S512x512 .bf16) (x2 : Vec F S2048x16 .bf16) (x3 : Vec F S512x16 .bf16) (xs0 : Vec F S2048x512 .f32) :
    sout0_C_0 c i arg3 harg3 arg4 harg4 arg5 harg5 arg6 harg6 arg7 harg7 arg8 harg8 hc0 hc1 x0 x1 x2 x3 xs0 = k0_pay2 x0 x1 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg3.read_unread, harg4.read_unread, harg8.read_unread, View.ld_unit_zero (S := S2048x512) hz,
    View.ld_unit_zero (S := S512x512) hz]

/-- and the output block holds the final value over that new accumulator. -/
theorem out_last (c : Dev nD) (i : grid0.Coords) (arg3 : Memref sig .tc .vmem S2048x512 .bf16) (harg3 : arg3.IsWhole) (arg4 : Memref sig .tc .vmem S512x512 .bf16) (harg4 : arg4.IsWhole) (arg5 : Memref sig .tc .vmem S2048x16 .bf16) (harg5 : arg5.IsWhole) (arg6 : Memref sig .tc .vmem S512x16 .bf16) (harg6 : arg6.IsWhole) (arg7 : Memref sig .tc .vmem S2048x512 .f32) (harg7 : arg7.IsWhole) (arg8 : Memref sig .tc .vmem S2048x512 .f32) (harg8 : arg8.IsWhole) (hc0 : ¬cond0_0 i) (hc1 : cond0_1 i)
    (x0 : Vec F S2048x512 .bf16) (x1 : Vec F S512x512 .bf16) (x2 : Vec F S2048x16 .bf16) (x3 : Vec F S512x16 .bf16) (xs0 : Vec F S2048x512 .f32) :
    out0_C_4 c i arg3 harg3 arg4 harg4 arg5 harg5 arg6 harg6 arg7 harg7 arg8 harg8 hc0 hc1 x0 x1 x2 x3 xs0 = k0_pay3 x2 x3 (k0_pay2 x0 x1 xs0) := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz, View.readCov_unit_zero (S := S2048x512) _ hz]
  simp only [View.readAt_eq_ld, harg3.read_unread, harg4.read_unread, harg5.read_unread, harg6.read_unread, harg8.read_unread,
    View.ld_unit_zero (S := S2048x512) hz, View.ld_unit_zero (S := S512x512) hz, View.ld_unit_zero (S := S2048x16) hz,
    View.ld_unit_zero (S := S512x16) hz]

end Cert.KernelIdeal.Pieces

end
-- ==== Proof.Sweep.lean ====
/-
  The accumulator and the output block, point by point, as the body's stored values of the point's input blocks.

  At the first step of a contraction sweep the accumulator becomes the step applied to the zero block; at every later
  step, the step applied to what the point before left; and at the last step of a sweep the output block becomes the
  final value over the accumulator that very point leaves.
-/
import proofs.«115246_j26422638805106_2_alg».proof.Proof.Pieces

noncomputable section

namespace Cert.KernelIdeal.Sweep

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- First step of a sweep (`t ≡ 0 mod 8`): the step over the zero block. -/
theorem acc_first (c : Dev nD) (t : Fin cfg0.N) (h0 : t.val % 8 = 0) :
    (outsAt0 m c t.val t.isLt).2 = k0_pay2 (iblk m c 0 t) (iblk m c 1 t) (k0_pay1 (F := F)) := by
  have h1 : ¬t.val % 8 = 7 := by omega
  rw [outsAt0_A m c t h0 h1]
  dsimp only
  exact Pieces.acc_first c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- A later step (`n + 1 ≢ 0 mod 8`): the step over what point `n` left. -/
theorem acc_next (c : Dev nD) (n : ℕ) (hn : n + 1 < cfg0.N) (h0 : ¬(n + 1) % 8 = 0) :
    (outsAt0 m c (n + 1) hn).2
      = k0_pay2 (iblk m c 0 ⟨n + 1, hn⟩) (iblk m c 1 ⟨n + 1, hn⟩) (outsAt0 m c n (Nat.lt_of_succ_lt hn)).2 := by
  by_cases h1 : (n + 1) % 8 = 7
  · rw [outsAt0_C m c ⟨n + 1, hn⟩ h0 h1]
    dsimp only
    exact Pieces.acc_last c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 m c n (Nat.lt_of_succ_lt hn)).2
  · rw [outsAt0_B m c ⟨n + 1, hn⟩ h0 h1]
    dsimp only
    exact Pieces.acc_middle c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 m c n (Nat.lt_of_succ_lt hn)).2

/-- Last step of a sweep (`t ≡ 7 mod 8`): the output block is the final value over the accumulator this point leaves. -/
theorem out_last (c : Dev nD) (t : Fin cfg0.N) (h1 : t.val % 8 = 7) :
    (outsAt0 m c t.val t.isLt).1 = k0_pay3 (iblk m c 2 t) (iblk m c 3 t) (outsAt0 m c t.val t.isLt).2 := by
  have h0 : ¬t.val % 8 = 0 := by omega
  rw [outsAt0_C m c t h0 h1]
  dsimp only
  rw [Pieces.acc_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t)]
  exact Pieces.out_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) _

end Cert.KernelIdeal.Sweep

end
-- ==== Proof.Spec.lean ====
/-
  The mathematics of the layer, with no program in sight.

  A matrix of extended reals is read at natural-number coordinates (zero outside its extents), so that a row of a
  row block (row `2048·i + p`) and a column of a column block (column `512·k + kk`) are plain sums of naturals.
  `dotTo A B r s n` is the dot product of row `r` of `A` with row `s` of `B` over their first `n` columns;
  it grows by one column block at a time (`dotTo_add`), which is how an accumulator swept over the contraction
  axis reaches the whole dot product. The layer is `x · Wᵀ + 2 · (mid · Uᵀ)`, entry by entry.
-/
import Idealize.ShloMosaic.PureOps.Ideal
import Idealize.ShloMosaic.Lib.ValueIdx

noncomputable section

open scoped BigOperators

namespace Cert.LoraLinear

open Idealize.ShloMosaic Idealize.ShloMosaic.ValueIdx

/-- An `a × b` matrix of extended reals. -/
abbrev Mat (a b : Nat) : Type := (⟨2, ![a, b]⟩ : Shape).Idx → EReal

/-- A matrix read at natural coordinates: its entry inside the extents, zero outside. -/
def ext {a b : Nat} (X : Mat a b) (r c : ℕ) : EReal :=
  if h : r < a ∧ c < b then X (ix2 ⟨r, h.1⟩ ⟨c, h.2⟩) else 0

/-- At coordinates that come from an index it is the entry. -/
theorem ext_val {a b : Nat} (X : Mat a b) (p : Fin a) (q : Fin b) : ext X p.val q.val = X (ix2 p q) := by
  unfold ext; rw [dif_pos ⟨p.isLt, q.isLt⟩]

/-- The same with the coordinates given as naturals below the extents. -/
theorem ext_of_lt {a b : Nat} (X : Mat a b) (r c : ℕ) (hr : r < a) (hc : c < b) :
    ext X r c = X (ix2 ⟨r, hr⟩ ⟨c, hc⟩) := by
  unfold ext; rw [dif_pos ⟨hr, hc⟩]

/-- Row `r` of `A` against row `s` of `B`, over the first `n` columns. -/
def dotTo (A B : ℕ → ℕ → EReal) (r s n : ℕ) : EReal := ∑ k ∈ Finset.range n, A r k * B s k

theorem dotTo_zero (A B : ℕ → ℕ → EReal) (r s : ℕ) : dotTo A B r s 0 = 0 := Finset.sum_range_zero _

/-- One more stretch of `w` columns: the dot product so far plus the stretch's own. -/
theorem dotTo_add (A B : ℕ → ℕ → EReal) (r s n w : ℕ) :
    dotTo A B r s (n + w) = dotTo A B r s n + ∑ k ∈ Finset.range w, A r (n + k) * B s (n + k) :=
  Finset.sum_range_add _ _ _

/-- A dot product written over the column index type is `dotTo` over all the columns. -/
theorem sum_fin_eq_dotTo {a b K : Nat} (X : Mat a K) (W : Mat b K) (p : Fin a) (q : Fin b) :
    ∑ k : Fin K, X (ix2 p k) * W (ix2 q k) = dotTo (ext X) (ext W) p.val q.val K := by
  unfold dotTo
  rw [← Fin.sum_univ_eq_sum_range (fun k => ext X p.val k * ext W q.val k) K]
  exact Finset.sum_congr rfl fun k _ => by rw [ext_val, ext_val]

/-- The scalar two, as the f32 word both programs write it. -/
abbrev two : EReal := Ideal.ofBits .f32 0x40000000#32

/-- The layer at row `r`, column `c`: the main product over 4096 columns plus twice the rank-16 product. -/
def layer (A W M U : ℕ → ℕ → EReal) (r c : ℕ) : EReal := dotTo A W r c 4096 + two * dotTo M U r c 16

end Cert.LoraLinear

end
-- ==== Proof.Payload.lean ====
/-
  What the kernel body's stores hold, element by element, over the extended reals.

  The body's three stored values are: the zero block (the accumulator's reset); the accumulator plus the product of
  the two loaded blocks, `acc[p,q] + Σₖₖ x[p,kk]·w[q,kk]` over the 512 columns of the current column block; and the
  final value `acc[p,q] + 2·Σᵣ mid[p,r]·u[q,r]` over the 16 columns of the low-rank factors. A matrix product into
  a zero accumulator is the plain sum over its one contracted axis; the shape casts between equal shapes and the
  changes of float format are the identity on extended reals.
-/
import proofs.«115246_j26422638805106_2_alg».proof.Proof.Gen.KernelIdeal.Skeleton
import proofs.«115246_j26422638805106_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- The dimension numbers of the main product: [2048,512] × [512,512], both contracted on axis 1. -/
abbrev dMain := dot_S2048x512_S512x512_S2048x512_1_1_0_0_n_n
/-- The dimension numbers of the low-rank product: [2048,16] × [512,16], both contracted on axis 1. -/
abbrev dLow := dot_S2048x16_S512x16_S2048x512_1_1_0_0_n_n

theorem dMain_lhs0 (i : S2048x512.Idx) (k : dMain.contr.Idx) : (dMain.lhsIdx i k 0).val = (i 0).val := by
  unfold DotDims.lhsIdx
  rw [dif_neg (show ¬(0 : Fin S2048x512.rank) ∈ dMain.lhsBatch by decide),
    dif_pos (show (0 : Fin S2048x512.rank) ∈ dMain.lhsNonContracting by decide)]
  rfl
theorem dMain_rhs0 (i : S2048x512.Idx) (k : dMain.contr.Idx) : (dMain.rhsIdx i k 0).val = (i 1).val := by
  unfold DotDims.rhsIdx
  rw [dif_neg (show ¬(0 : Fin S512x512.rank) ∈ dMain.rhsBatch by decide),
    dif_pos (show (0 : Fin S512x512.rank) ∈ dMain.rhsNonContracting by decide)]
  rfl
theorem dLow_lhs0 (i : S2048x512.Idx) (k : dLow.contr.Idx) : (dLow.lhsIdx i k 0).val = (i 0).val := by
  unfold DotDims.lhsIdx
  rw [dif_neg (show ¬(0 : Fin S2048x16.rank) ∈ dLow.lhsBatch by decide),
    dif_pos (show (0 : Fin S2048x16.rank) ∈ dLow.lhsNonContracting by decide)]
  rfl
theorem dLow_rhs0 (i : S2048x512.Idx) (k : dLow.contr.Idx) : (dLow.rhsIdx i k 0).val = (i 1).val := by
  unfold DotDims.rhsIdx
  rw [dif_neg (show ¬(0 : Fin S512x16.rank) ∈ dLow.rhsBatch by decide),
    dif_pos (show (0 : Fin S512x16.rank) ∈ dLow.rhsNonContracting by decide)]
  rfl

/-- The main product into a zero accumulator, at row `p`, column `q`: the sum over the block's 512 columns. -/
theorem main_product_apply (x : FVec Ideal S2048x512 .bf16) (w : FVec Ideal S512x512 .bf16) (p : Fin 2048) (q : Fin 512) :
    matmul (F := Ideal) dMain none x w (constant S2048x512 .f32 0x00000000#32) (ix2 p q)
      = ∑ kk : Fin 512, x (ix2 p kk) * w (ix2 q kk) := by
  refine (Ideal.matmul_constant_zero_apply dMain none x w (ix2 p q)).trans ?_
  rw [← Equiv.sum_comp (contrEquiv1 dMain 512 rfl rfl).symm]
  refine Finset.sum_congr rfl fun k _ => ?_
  have hk := contrEquiv1_symm_val dMain 512 rfl rfl k
  have el : dMain.lhsIdx (ix2 p q) ((contrEquiv1 dMain 512 rfl rfl).symm k) = ix2 p k := funext fun a => Fin.ext (by
    match a with
    | ⟨0, _⟩ => exact dMain_lhs0 _ _
    | ⟨1, _⟩ => exact (dMain.lhsIdx_val_of_single rfl _ _).trans hk)
  have er : dMain.rhsIdx (ix2 p q) ((contrEquiv1 dMain 512 rfl rfl).symm k) = ix2 q k := funext fun a => Fin.ext (by
    match a with
    | ⟨0, _⟩ => exact dMain_rhs0 _ _
    | ⟨1, _⟩ => exact (dMain.rhsIdx_val_of_single rfl _ _).trans hk)
  rw [el, er]

/-- The low-rank product into a zero accumulator, at row `p`, column `q`: the sum over the 16 columns. -/
theorem low_product_apply (md : FVec Ideal S2048x16 .bf16) (u : FVec Ideal S512x16 .bf16) (p : Fin 2048) (q : Fin 512) :
    matmul (F := Ideal) dLow none md u (constant S2048x512 .f32 0x00000000#32) (ix2 p q)
      = ∑ r : Fin 16, md (ix2 p r) * u (ix2 q r) := by
  refine (Ideal.matmul_constant_zero_apply dLow none md u (ix2 p q)).trans ?_
  rw [← Equiv.sum_comp (contrEquiv1 dLow 16 rfl rfl).symm]
  refine Finset.sum_congr rfl fun k _ => ?_
  have hk := contrEquiv1_symm_val dLow 16 rfl rfl k
  have el : dLow.lhsIdx (ix2 p q) ((contrEquiv1 dLow 16 rfl rfl).symm k) = ix2 p k := funext fun a => Fin.ext (by
    match a with
    | ⟨0, _⟩ => exact dLow_lhs0 _ _
    | ⟨1, _⟩ => exact (dLow.lhsIdx_val_of_single rfl _ _).trans hk)
  have er : dLow.rhsIdx (ix2 p q) ((contrEquiv1 dLow 16 rfl rfl).symm k) = ix2 q k := funext fun a => Fin.ext (by
    match a with
    | ⟨0, _⟩ => exact dLow_rhs0 _ _
    | ⟨1, _⟩ => exact (dLow.rhsIdx_val_of_single rfl _ _).trans hk)
  rw [el, er]

/-- The reset stores zero everywhere. -/
theorem reset_apply (j : S2048x512.Idx) : k0_pay1 (F := Ideal) j = 0 := by
  unfold k0_pay1
  rw [shapeCast_self]
  exact Ideal.ofBits_zero_f32

/-- The accumulation step at row `p`, column `q`: the accumulator's entry plus the blocks' product there. -/
theorem step_apply (x : Vec Ideal S2048x512 .bf16) (w : Vec Ideal S512x512 .bf16) (acc : Vec Ideal S2048x512 .f32)
    (p : Fin 2048) (q : Fin 512) :
    k0_pay2 (F := Ideal) x w acc (ix2 p q) = acc (ix2 p q) + ∑ kk : Fin 512, x (ix2 p kk) * w (ix2 q kk) := by
  unfold k0_pay2
  rw [shapeCast_self, shapeCast_self, shapeCast_self]
  exact congrArg (acc (ix2 p q) + ·) (main_product_apply x w p q)

/-- The final value at row `p`, column `q`: the accumulator's entry plus twice the low-rank product there. -/
theorem final_apply (md : Vec Ideal S2048x16 .bf16) (u : Vec Ideal S512x16 .bf16) (acc : Vec Ideal S2048x512 .f32)
    (p : Fin 2048) (q : Fin 512) :
    k0_pay3 (F := Ideal) md u acc (ix2 p q)
      = acc (ix2 p q) + Cert.LoraLinear.two * ∑ r : Fin 16, md (ix2 p r) * u (ix2 q r) := by
  unfold k0_pay3
  rw [shapeCast_self, shapeCast_self]
  exact congrArg (fun z => acc (ix2 p q) + Cert.LoraLinear.two * z) (low_product_apply md u p q)

end Cert.KernelIdeal.Payload

end
-- ==== Proof.Blocks.lean ====
/-
  Where each window's block sits in its array.

  The grid has 4 × 8 × 8 points; point `t = 64·i + 8·j + k` works on row block `i` (2048 rows), column block `j`
  (512 columns of the output) and contraction block `k` (512 columns of the contraction axis). So the activation
  block at `t` is rows `2048·i …`, columns `512·k …` of the activations; the weight block rows `512·j …`, columns
  `512·k …` of the weights; the low-rank blocks rows `2048·i …` and `512·j …` of their arrays, all 16 columns; and
  the output block rows `2048·i …`, columns `512·j …` of the output.
-/
import proofs.«115246_j26422638805106_2_alg».proof.Proof.Gen.KernelIdeal.Frame
import Idealize.ShloMosaic.Lib.Pipeline.Value

noncomputable section

namespace Cert.KernelIdeal.Blocks

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The block indices of the five windows at point `t`, decided over the 256 points. -/
theorem idx_x : ∀ t : Fin cfg0.N, win0_0.index t 0 = t.val / 64 ∧ win0_0.index t 1 = t.val % 8 :=
  (by decide +kernel : ∀ t : Fin grid0.N, win0_0.index t 0 = t.val / 64 ∧ win0_0.index t 1 = t.val % 8)
theorem idx_w : ∀ t : Fin cfg0.N, win0_1.index t 0 = t.val / 8 % 8 ∧ win0_1.index t 1 = t.val % 8 :=
  (by decide +kernel : ∀ t : Fin grid0.N, win0_1.index t 0 = t.val / 8 % 8 ∧ win0_1.index t 1 = t.val % 8)
theorem idx_mid : ∀ t : Fin cfg0.N, win0_2.index t 0 = t.val / 64 ∧ win0_2.index t 1 = 0 :=
  (by decide +kernel : ∀ t : Fin grid0.N, win0_2.index t 0 = t.val / 64 ∧ win0_2.index t 1 = 0)
theorem idx_u : ∀ t : Fin cfg0.N, win0_3.index t 0 = t.val / 8 % 8 ∧ win0_3.index t 1 = 0 :=
  (by decide +kernel : ∀ t : Fin grid0.N, win0_3.index t 0 = t.val / 8 % 8 ∧ win0_3.index t 1 = 0)
theorem idx_out : ∀ t : Fin cfg0.N, win0_4.index t 0 = t.val / 64 ∧ win0_4.index t 1 = t.val / 8 % 8 :=
  (by decide +kernel : ∀ t : Fin grid0.N, win0_4.index t 0 = t.val / 64 ∧ win0_4.index t 1 = t.val / 8 % 8)

/-- The activation block at `t`, entry `y`, is the activations' entry at row `2048·(t/64) + y₀`, column `512·(t%8) + y₁`. -/
theorem x_block (c : Dev nD) (t : Fin cfg0.N) (y : S2048x512.Idx) (k : S8192x4096.Idx)
    (h0 : (k 0).val = 2048 * (t.val / 64) + (y 0).val) (h1 : (k 1).val = 512 * (t.val % 8) + (y 1).val) :
    (iblk m c 0 t : Vec F S2048x512 .bf16) y = (V m c main_v1 : S8192x4096.Idx → Elt F .bf16) k := by
  have hi := idx_x t
  unfold iblk
  rw [View.read_apply]
  show V m c main_v1 _ = V m c main_v1 _
  refine congrArg (V m c main_v1) (funext fun a => Fin.ext ?_)
  match a with
  | ⟨0, _⟩ => show win0_0.index t 0 * 2048 + 1 * (y 0).val = (k 0).val; rw [hi.1, h0]; omega
  | ⟨1, _⟩ => show win0_0.index t 1 * 512 + 1 * (y 1).val = (k 1).val; rw [hi.2, h1]; omega

/-- The weight block at `t`, entry `y`: row `512·(t/8%8) + y₀`, column `512·(t%8) + y₁` of the weights. -/
theorem w_block (c : Dev nD) (t : Fin cfg0.N) (y : S512x512.Idx) (k : S4096x4096.Idx)
    (h0 : (k 0).val = 512 * (t.val / 8 % 8) + (y 0).val) (h1 : (k 1).val = 512 * (t.val % 8) + (y 1).val) :
    (iblk m c 1 t : Vec F S512x512 .bf16) y = (V m c main_v7 : S4096x4096.Idx → Elt F .bf16) k := by
  have hi := idx_w t
  unfold iblk
  rw [View.read_apply]
  show V m c main_v7 _ = V m c main_v7 _
  refine congrArg (V m c main_v7) (funext fun a => Fin.ext ?_)
  match a with
  | ⟨0, _⟩ => show win0_1.index t 0 * 512 + 1 * (y 0).val = (k 0).val; rw [hi.1, h0]; omega
  | ⟨1, _⟩ => show win0_1.index t 1 * 512 + 1 * (y 1).val = (k 1).val; rw [hi.2, h1]; omega

/-- The block of the activations' low-rank projection at `t`, entry `y`: row `2048·(t/64) + y₀`, column `y₁`. -/
theorem mid_block (c : Dev nD) (t : Fin cfg0.N) (y : S2048x16.Idx) (k : S8192x16.Idx)
    (h0 : (k 0).val = 2048 * (t.val / 64) + (y 0).val) (h1 : (k 1).val = (y 1).val) :
    (iblk m c 2 t : Vec F S2048x16 .bf16) y = (V m c main_v11 : S8192x16.Idx → Elt F .bf16) k := by
  have hi := idx_mid t
  unfold iblk
  rw [View.read_apply]
  show V m c main_v11 _ = V m c main_v11 _
  refine congrArg (V m c main_v11) (funext fun a => Fin.ext ?_)
  match a with
  | ⟨0, _⟩ => show win0_2.index t 0 * 2048 + 1 * (y 0).val = (k 0).val; rw [hi.1, h0]; omega
  | ⟨1, _⟩ => show win0_2.index t 1 * 16 + 1 * (y 1).val = (k 1).val; rw [hi.2, h1]; omega

/-- The block of the up-projection factor at `t`, entry `y`: row `512·(t/8%8) + y₀`, column `y₁`. -/
theorem u_block (c : Dev nD) (t : Fin cfg0.N) (y : S512x16.Idx) (k : S4096x16.Idx)
    (h0 : (k 0).val = 512 * (t.val / 8 % 8) + (y 0).val) (h1 : (k 1).val = (y 1).val) :
    (iblk m c 3 t : Vec F S512x16 .bf16) y = (V m c main_v9 : S4096x16.Idx → Elt F .bf16) k := by
  have hi := idx_u t
  unfold iblk
  rw [View.read_apply]
  show V m c main_v9 _ = V m c main_v9 _
  refine congrArg (V m c main_v9) (funext fun a => Fin.ext ?_)
  match a with
  | ⟨0, _⟩ => show win0_3.index t 0 * 512 + 1 * (y 0).val = (k 0).val; rw [hi.1, h0]; omega
  | ⟨1, _⟩ => show win0_3.index t 1 * 16 + 1 * (y 1).val = (k 1).val; rw [hi.2, h1]; omega

end Cert.KernelIdeal.Blocks

end
-- ==== Proof.Accum.lean ====
/-
  The accumulator after each grid point, and the output block after the last step of a sweep, as sums.

  Point `n = 64·i + 8·j + k` adds, to entry `(p, q)` of the accumulator, the dot product of row `2048·i + p` of the
  activations with row `512·j + q` of the weights over the columns `512·k … 512·k + 511`. The sweep `k = 0 … 7`
  starts from zero, so after point `n` the entry holds that dot product over the first `512·(k + 1)` columns — by
  induction on the point, each step appending one stretch of columns — and after `k = 7` over all 4096. The output
  block then holds that plus twice the rank-16 dot product of the projected activations with the up-projection factor.
-/
import proofs.«115246_j26422638805106_2_alg».proof.Proof.Sweep
import proofs.«115246_j26422638805106_2_alg».proof.Proof.Payload
import proofs.«115246_j26422638805106_2_alg».proof.Proof.Blocks
import proofs.«115246_j26422638805106_2_alg».proof.Proof.Spec

noncomputable section

open scoped BigOperators

namespace Cert.KernelIdeal.Accum

open Cert.KernelIdeal Cert.KernelIdeal.Gen Idealize.ShloMosaic Idealize.ShloMosaic.TcCoe Idealize.SL.Sem
open Idealize.ShloMosaic.ValueIdx Cert.LoraLinear

/-! ## Sums over a block's columns, for any blocks whose entries are known -/

/-- A product over a block's 512 columns, when the two blocks' entries are those of `A` and `B` from column `k0` on. -/
theorem stretch_of (x : Vec Ideal S2048x512 .bf16) (w : Vec Ideal S512x512 .bf16) (A B : ℕ → ℕ → EReal) (r s k0 : ℕ)
    (p : Fin 2048) (q : Fin 512)
    (hx : ∀ kk : Fin 512, x (ix2 p kk) = A r (k0 + kk.val)) (hw : ∀ kk : Fin 512, w (ix2 q kk) = B s (k0 + kk.val)) :
    ∑ kk : Fin 512, x (ix2 p kk) * w (ix2 q kk) = ∑ kk ∈ Finset.range 512, A r (k0 + kk) * B s (k0 + kk) := by
  rw [← Fin.sum_univ_eq_sum_range (fun kk => A r (k0 + kk) * B s (k0 + kk)) 512]
  exact Finset.sum_congr rfl fun kk _ => by rw [hx kk, hw kk]

/-- A product over the 16 columns of the low-rank factors, when the two blocks' entries are those of `A` and `B`. -/
theorem low_of (md : Vec Ideal S2048x16 .bf16) (u : Vec Ideal S512x16 .bf16) (A B : ℕ → ℕ → EReal) (r s : ℕ)
    (p : Fin 2048) (q : Fin 512)
    (hm : ∀ j : Fin 16, md (ix2 p j) = A r j.val) (hu : ∀ j : Fin 16, u (ix2 q j) = B s j.val) :
    ∑ j : Fin 16, md (ix2 p j) * u (ix2 q j) = dotTo A B r s 16 := by
  unfold dotTo
  rw [← Fin.sum_univ_eq_sum_range (fun j => A r j * B s j) 16]
  exact Finset.sum_congr rfl fun j _ => by rw [hm j, hu j]

/-- The dot product over one more column block. -/
theorem dotTo_block (A B : ℕ → ℕ → EReal) (r s k : ℕ) :
    dotTo A B r s (512 * (k + 1)) = dotTo A B r s (512 * k) + ∑ kk ∈ Finset.range 512, A r (512 * k + kk) * B s (512 * k + kk) := by
  rw [Nat.mul_succ, dotTo_add]

/-- The first column block, added to zero. -/
theorem first_block (A B : ℕ → ℕ → EReal) (r s k : ℕ) (hk : k = 0) :
    0 + ∑ kk ∈ Finset.range 512, A r (512 * k + kk) * B s (512 * k + kk) = dotTo A B r s (512 * (k + 1)) := by
  subst hk
  rw [dotTo_block, Nat.mul_zero, dotTo_zero]

/-! ## The arrays the region reads, and its blocks' entries in them -/

variable (m : (ℓ : Loc nD τ sig) → Buf (Elt Ideal) ℓ)

/-- The four arrays the region reads, as it finds them: the activations [8192,4096], the scaled weights [4096,4096],
    the activations' low-rank projection [8192,16] and the up-projection factor [4096,16]. -/
def actv (c : Dev nD) : Mat 8192 4096 := V m c main_v1
def wgt (c : Dev nD) : Mat 4096 4096 := V m c main_v7
def proj (c : Dev nD) : Mat 8192 16 := V m c main_v11
def upf (c : Dev nD) : Mat 4096 16 := V m c main_v9

theorem x_entry (c : Dev nD) (t : Fin cfg0.N) (p : Fin 2048) (kk : Fin 512) :
    (iblk m c 0 t : Vec Ideal S2048x512 .bf16) (ix2 p kk) = ext (actv m c) (2048 * (t.val / 64) + p.val) (512 * (t.val % 8) + kk.val) := by
  have hN : t.val < 256 := lt_of_lt_of_eq t.isLt N_0
  have hp := p.isLt
  have hk := kk.isLt
  rw [ext_of_lt (actv m c) _ _ (by omega) (by omega)]
  exact Blocks.x_block m c t (ix2 p kk) (ix2 ⟨2048 * (t.val / 64) + p.val, by omega⟩ ⟨512 * (t.val % 8) + kk.val, by omega⟩) rfl rfl

theorem w_entry (c : Dev nD) (t : Fin cfg0.N) (q : Fin 512) (kk : Fin 512) :
    (iblk m c 1 t : Vec Ideal S512x512 .bf16) (ix2 q kk) = ext (wgt m c) (512 * (t.val / 8 % 8) + q.val) (512 * (t.val % 8) + kk.val) := by
  have hN : t.val < 256 := lt_of_lt_of_eq t.isLt N_0
  have hq := q.isLt
  have hk := kk.isLt
  rw [ext_of_lt (wgt m c) _ _ (by omega) (by omega)]
  exact Blocks.w_block m c t (ix2 q kk) (ix2 ⟨512 * (t.val / 8 % 8) + q.val, by omega⟩ ⟨512 * (t.val % 8) + kk.val, by omega⟩) rfl rfl

theorem mid_entry (c : Dev nD) (t : Fin cfg0.N) (p : Fin 2048) (j : Fin 16) :
    (iblk m c 2 t : Vec Ideal S2048x16 .bf16) (ix2 p j) = ext (proj m c) (2048 * (t.val / 64) + p.val) j.val := by
  have hN : t.val < 256 := lt_of_lt_of_eq t.isLt N_0
  have hp := p.isLt
  have hj := j.isLt
  rw [ext_of_lt (proj m c) _ _ (by omega) hj]
  exact Blocks.mid_block m c t (ix2 p j) (ix2 ⟨2048 * (t.val / 64) + p.val, by omega⟩ ⟨j.val, hj⟩) rfl rfl

theorem u_entry (c : Dev nD) (t : Fin cfg0.N) (q : Fin 512) (j : Fin 16) :
    (iblk m c 3 t : Vec Ideal S512x16 .bf16) (ix2 q j) = ext (upf m c) (512 * (t.val / 8 % 8) + q.val) j.val := by
  have hN : t.val < 256 := lt_of_lt_of_eq t.isLt N_0
  have hq := q.isLt
  have hj := j.isLt
  rw [ext_of_lt (upf m c) _ _ (by omega) hj]
  exact Blocks.u_block m c t (ix2 q j) (ix2 ⟨512 * (t.val / 8 % 8) + q.val, by omega⟩ ⟨j.val, hj⟩) rfl rfl

/-! ## The accumulator, point by point -/

/-- The step at point `t`, entry `(p, q)`: the accumulator's entry plus the point's stretch of columns. -/
theorem step_at (c : Dev nD) (t : Fin cfg0.N) (acc : Vec Ideal S2048x512 .f32) (p : Fin 2048) (q : Fin 512) :
    k0_pay2 (F := Ideal) (iblk m c 0 t) (iblk m c 1 t) acc (ix2 p q)
      = acc (ix2 p q) + ∑ kk ∈ Finset.range 512, ext (actv m c) (2048 * (t.val / 64) + p.val) (512 * (t.val % 8) + kk)
          * ext (wgt m c) (512 * (t.val / 8 % 8) + q.val) (512 * (t.val % 8) + kk) :=
  (Payload.step_apply (iblk m c 0 t) (iblk m c 1 t) acc p q).trans (congrArg (acc (ix2 p q) + ·)
    (stretch_of (iblk m c 0 t) (iblk m c 1 t) (ext (actv m c)) (ext (wgt m c)) (2048 * (t.val / 64) + p.val)
      (512 * (t.val / 8 % 8) + q.val) (512 * (t.val % 8)) p q (x_entry m c t p) (w_entry m c t q)))

/-- THE ACCUMULATOR after point `n`: the dot product over the first `512·(n % 8 + 1)` columns. -/
theorem acc_eq (c : Dev nD) : ∀ (n : ℕ) (hn : n < cfg0.N) (p : Fin 2048) (q : Fin 512),
    (outsAt0 m c n hn).2 (ix2 p q)
      = dotTo (ext (actv m c)) (ext (wgt m c)) (2048 * (n / 64) + p.val) (512 * (n / 8 % 8) + q.val) (512 * (n % 8 + 1)) := by
  intro n
  induction n with
  | zero =>
    intro hn p q
    rw [Sweep.acc_first m c ⟨0, hn⟩ rfl, step_at, Payload.reset_apply]
    exact first_block _ _ _ _ (0 % 8) rfl
  | succ n ih =>
    intro hn p q
    have hN : n + 1 < 256 := lt_of_lt_of_eq hn N_0
    by_cases h0 : (n + 1) % 8 = 0
    · rw [Sweep.acc_first m c ⟨n + 1, hn⟩ h0, step_at, Payload.reset_apply]
      exact first_block _ _ _ _ ((n + 1) % 8) h0
    · rw [Sweep.acc_next m c n hn h0, step_at, ih (Nat.lt_of_succ_lt hn) p q]
      have e1 : n / 64 = (n + 1) / 64 := by omega
      have e2 : n / 8 % 8 = (n + 1) / 8 % 8 := by omega
      have e3 : n % 8 + 1 = (n + 1) % 8 := by omega
      rw [e1, e2, e3]
      exact (dotTo_block _ _ _ _ ((n + 1) % 8)).symm

/-! ## The output block at the end of a sweep -/

/-- THE OUTPUT BLOCK after the last step of a sweep, entry `(p, q)`: the layer at row `2048·(t/64) + p`, column `512·(t/8 % 8) + q`. -/
theorem out_eq (c : Dev nD) (t : Fin cfg0.N) (h7 : t.val % 8 = 7) (p : Fin 2048) (q : Fin 512) :
    (outsAt0 m c t.val t.isLt).1 (ix2 p q)
      = layer (ext (actv m c)) (ext (wgt m c)) (ext (proj m c)) (ext (upf m c)) (2048 * (t.val / 64) + p.val) (512 * (t.val / 8 % 8) + q.val) := by
  rw [Sweep.out_last m c t h7, Payload.final_apply, acc_eq m c t.val t.isLt p q,
    low_of (iblk m c 2 t) (iblk m c 3 t) (ext (proj m c)) (ext (upf m c)) (2048 * (t.val / 64) + p.val) (512 * (t.val / 8 % 8) + q.val) p q
      (mid_entry m c t p) (u_entry m c t q), h7]
  rfl

end Cert.KernelIdeal.Accum

end
-- ==== Proof.Region.lean ====
/-
  The region's result array, whole.

  The output block is written back exactly at the last step of each contraction sweep, point `64·i + 8·j + 7`, and it
  then holds the layer's entries for rows `2048·i …` and columns `512·j …`. Every index `(r, s)` of the [8192,4096]
  result lies in the block of the point with `i = r / 2048`, `j = s / 512`, so the 32 written blocks tile the array
  and it ends holding the layer everywhere.
-/
import proofs.«115246_j26422638805106_2_alg».proof.Proof.Accum

noncomputable section

namespace Cert.KernelIdeal.Region

open Cert.KernelIdeal Cert.KernelIdeal.Gen Idealize.ShloMosaic Idealize.ShloMosaic.TcCoe Idealize.SL.Sem
open Idealize.ShloMosaic.Pipeline (Dat)
open Idealize.ShloMosaic.ValueIdx Cert.LoraLinear Cert.KernelIdeal.Accum

variable (m : (ℓ : Loc nD τ sig) → Buf (Elt Ideal) ℓ)

/-- The layer over the arrays the region finds, as contents of the region's result array. -/
def result (c : Dev nD) : Buf (Elt Ideal) ((c : Thread nD τ).loc main_v12) :=
  fun i => layer (ext (actv m c)) (ext (wgt m c)) (ext (proj m c)) (ext (upf m c)) (i 0).val (i 1).val

/-- What a writing point writes back is its block of the layer. -/
theorem flushed_eq (c : Dev nD) (t : Fin cfg0.N) (hf : (cfg0.win 4).flush t = true) :
    (dats m 0 c).flushed 4 t = ((cfg0.win 4).blk t).view.read (Elt Ideal) (result m c) := by
  have h7 : t.val % 8 = 7 := (flush0_4 t).mp hf
  have hi := Blocks.idx_out t
  show (cfg0.win 4).cut (grid0.coords t) ((dats m 0 c).after 4 t) = _
  rw [after0_4]
  funext j
  obtain ⟨p, q, rfl⟩ : ∃ (p : Fin 2048) (q : Fin 512), j = ix2 p q := ⟨j 0, j 1, eq_ix2 j⟩
  refine (out_eq m c t h7 p q).trans ?_
  show _ = result m c (((cfg0.win 4).blk t).view.emb (ix2 p q))
  unfold result
  have e0 : ((((cfg0.win 4).blk t).view.emb (ix2 p q)) 0).val = 2048 * (t.val / 64) + p.val := by
    show win0_4.index t 0 * 2048 + 1 * p.val = _
    rw [hi.1]; omega
  have e1 : ((((cfg0.win 4).blk t).view.emb (ix2 p q)) 1).val = 512 * (t.val / 8 % 8) + q.val := by
    show win0_4.index t 1 * 512 + 1 * q.val = _
    rw [hi.2]; omega
  rw [e0, e1]

/-- An index of the result is in point `t`'s block iff each coordinate is in the block's range on its axis. -/
theorem mem_blk (t : Fin cfg0.N) (i : S8192x4096.Idx) :
    i ∈ ((cfg0.win 4).blk t).view.set ↔ ∀ a : Fin 2, win0_4.index t a * S2048x512.size a ≤ (i a).val ∧ (i a).val < win0_4.index t a * S2048x512.size a + S2048x512.size a := by
  show i ∈ ((View.whole main_v12).slice (win0_4.rect t)).set ↔ _
  rw [View.set_slice_whole, Rect.mem_set_unit]
  exact Iff.rfl

/-- Every index of the result is in some writing point's block. -/
theorem cover (i : S8192x4096.Idx) : ∃ t : Fin cfg0.N, (cfg0.win 4).flush t = true ∧ i ∈ ((cfg0.win 4).blk t).view.set := by
  have h0 : (i 0).val < 8192 := (i 0).isLt
  have h1 : (i 1).val < 4096 := (i 1).isLt
  have hN : cfg0.N = 256 := N_0
  let t : Fin cfg0.N := ⟨64 * ((i 0).val / 2048) + 8 * ((i 1).val / 512) + 7, by rw [hN]; omega⟩
  have ht : t.val = 64 * ((i 0).val / 2048) + 8 * ((i 1).val / 512) + 7 := rfl
  have hi := Blocks.idx_out t
  refine ⟨t, (flush0_4 t).mpr (by rw [ht]; omega), ?_⟩
  rw [mem_blk]
  intro a
  match a with
  | ⟨0, _⟩ => show win0_4.index t 0 * 2048 ≤ (i 0).val ∧ (i 0).val < win0_4.index t 0 * 2048 + 2048; rw [hi.1, ht]; omega
  | ⟨1, _⟩ => show win0_4.index t 1 * 512 ≤ (i 1).val ∧ (i 1).val < win0_4.index t 1 * 512 + 512; rw [hi.2, ht]; omega

/-- THE REGION'S RESULT ARRAY after the run: the layer, everywhere. -/
theorem final (c : Dev nD) : (dats m 0 c).arrAt 4 cfg0.N = result m c :=
  (dats m 0 c).arrAt_eq_of_cover 4 (result m c) (flushed_eq m c) cover

end Cert.KernelIdeal.Region

end
-- ==== Proof.Layer3.lean ====
/-
  The layer over the batched activations, and the step from the flattened form to it.

  The activations arrive as a [4,2048,4096] array; flattened to [8192,4096], row `2048·b + s` is `(b, s)`. The layer at
  `(b, s, o)` is `Σₖ x[b,s,k]·W[o,k] + 2·Σⱼ (Σₖ x[b,s,k]·D[j,k])·U[o,j]`. If a flattened array `A` has `x`'s entries
  in its row `P = 2048·b + s`, and an array `Pj` holds in that row the dot products of `A`'s row with the rows of `D`,
  then the flattened layer at `(P, o)` is the layer at `(b, s, o)`: the same sums, term by term.
-/
import proofs.«115246_j26422638805106_2_alg».proof.Proof.Spec

noncomputable section

open scoped BigOperators

namespace Cert.LoraLinear

open Idealize.ShloMosaic Idealize.ShloMosaic.ValueIdx

/-- An `a × b × c` array of extended reals. -/
abbrev Ten (a b c : Nat) : Type := (⟨3, ![a, b, c]⟩ : Shape).Idx → EReal

/-- The layer at batch `b`, position `s`, output feature `o`. -/
def layer3At (x : Ten 4 2048 4096) (W : Mat 4096 4096) (D : Mat 16 4096) (U : Mat 4096 16)
    (b : Fin 4) (s : Fin 2048) (o : Fin 4096) : EReal :=
  ∑ k : Fin 4096, x (ix3 b s k) * W (ix2 o k)
    + two * ∑ j : Fin 16, (∑ k : Fin 4096, x (ix3 b s k) * D (ix2 j k)) * U (ix2 o j)

/-- The layer, as an array. -/
def layer3 (x : Ten 4 2048 4096) (W : Mat 4096 4096) (D : Mat 16 4096) (U : Mat 4096 16) : Ten 4 2048 4096 :=
  fun i => layer3At x W D U (i 0) (i 1) (i 2)

theorem layer3_apply (x : Ten 4 2048 4096) (W : Mat 4096 4096) (D : Mat 16 4096) (U : Mat 4096 16)
    (b : Fin 4) (s : Fin 2048) (o : Fin 4096) : layer3 x W D U (ix3 b s o) = layer3At x W D U b s o := rfl

/-- The flattened layer at row `P` (which holds `x`'s entries of `(b, s)`) is the layer at `(b, s, ·)`. -/
theorem layer_eq_layer3At (A : Mat 8192 4096) (W : Mat 4096 4096) (Pj : Mat 8192 16) (U : Mat 4096 16)
    (x : Ten 4 2048 4096) (D : Mat 16 4096) (b : Fin 4) (s : Fin 2048) (o : Fin 4096) (P : Fin 8192)
    (hx : ∀ k : Fin 4096, A (ix2 P k) = x (ix3 b s k))
    (hp : ∀ j : Fin 16, Pj (ix2 P j) = ∑ k : Fin 4096, A (ix2 P k) * D (ix2 j k)) :
    layer (ext A) (ext W) (ext Pj) (ext U) P.val o.val = layer3At x W D U b s o := by
  unfold layer layer3At
  rw [← sum_fin_eq_dotTo A W P o, ← sum_fin_eq_dotTo Pj U P o]
  refine congrArg₂ (· + ·) (Finset.sum_congr rfl fun k _ => by rw [hx k]) (congrArg (two * ·) ?_)
  refine Finset.sum_congr rfl fun j _ => ?_
  rw [hp j]
  exact congrArg (· * U (ix2 o j)) (Finset.sum_congr rfl fun k _ => by rw [hx k])

end Cert.LoraLinear

end
-- ==== Proof.KernelOut.lean ====
/-
  The kernel program's result, as a function of its five arguments.

  Before the region the host flattens the activations `x` to [8192,4096] (row `2048·b + s` is `(b, s)`), scales the
  weights block by block (`dequant`), and projects the flattened activations onto the 16 rows of the down-projection
  factor; after the region it reshapes the [8192,4096] result back to [4,2048,4096]. Changes of float format are the
  identity on extended reals. So the program's result at `(b, s, o)` is the region's result at `(2048·b + s, o)`, which
  is the layer at `(b, s, o)` over `x`, the scaled weights and the two low-rank factors.
-/
import proofs.«115246_j26422638805106_2_alg».proof.Proof.Region
import proofs.«115246_j26422638805106_2_alg».proof.Proof.Layer3
import Idealize.ShloMosaic.Lib.StableHlo.Run
import Idealize.ShloMosaic.PureOps.Ideal.Laws

noncomputable section

open scoped BigOperators

namespace Cert.KernelIdeal.Out

open Cert.KernelIdeal Cert.KernelIdeal.Gen Idealize.ShloMosaic Idealize.ShloMosaic.TcCoe Idealize.SL.Sem
open Idealize.ShloMosaic.StableHlo Idealize.ShloMosaic.ValueIdx Cert.LoraLinear Cert.KernelIdeal.Accum

/-- The block-scaled weights: each [128,128] block of `w` times its entry of the [32,32] scale table. -/
def dequant (w : FVec Ideal S4096x4096 .f32) (sc : FVec Ideal S32x32 .f32) : FVec Ideal S4096x4096 .f32 :=
  mulf w (shapeCast S4096x4096 (broadcastInDim S4096x32x128 ![0, 1] bcast_S4096x32_S4096x32x128_0_1
    (shapeCast S4096x32 (broadcastInDim S32x128x32 ![0, 2] bcast_S32x32_S32x128x32_0_2 sc) shapeCasts_S32x128x32_S4096x32))
    shapeCasts_S4096x32x128_S4096x4096)

/-- The dimension numbers of the host's projection: [8192,4096] × [16,4096], both contracted on axis 1. -/
abbrev dHost := dot_S8192x4096_S16x4096_S8192x16_1_1_0_0_n_n

theorem dHost_lhs0 (i : S8192x16.Idx) (k : dHost.contr.Idx) : (dHost.lhsIdx i k 0).val = (i 0).val := by
  unfold DotDims.lhsIdx
  rw [dif_neg (show ¬(0 : Fin S8192x4096.rank) ∈ dHost.lhsBatch by decide),
    dif_pos (show (0 : Fin S8192x4096.rank) ∈ dHost.lhsNonContracting by decide)]
  rfl
theorem dHost_rhs0 (i : S8192x16.Idx) (k : dHost.contr.Idx) : (dHost.rhsIdx i k 0).val = (i 1).val := by
  unfold DotDims.rhsIdx
  rw [dif_neg (show ¬(0 : Fin S16x4096.rank) ∈ dHost.rhsBatch by decide),
    dif_pos (show (0 : Fin S16x4096.rank) ∈ dHost.rhsNonContracting by decide)]
  rfl

/-- The host's projection at row `P`, column `j`: the dot product of row `P` of `A` with row `j` of `D`. -/
theorem host_dot_apply (A : FVec Ideal S8192x4096 .bf16) (D : FVec Ideal S16x4096 .bf16) (P : Fin 8192) (j : Fin 16) :
    Host.dotGeneral (F := Ideal) dHost none A D (ix2 P j) = ∑ k : Fin 4096, A (ix2 P k) * D (ix2 j k) := by
  simp only [Host.dotGeneral]
  rw [Ideal.dotGeneral_apply, ← Equiv.sum_comp (contrEquiv1 dHost 4096 rfl rfl).symm]
  refine Finset.sum_congr rfl fun k _ => ?_
  have hk := contrEquiv1_symm_val dHost 4096 rfl rfl k
  have el : dHost.lhsIdx (ix2 P j) ((contrEquiv1 dHost 4096 rfl rfl).symm k) = ix2 P k := funext fun a => Fin.ext (by
    match a with
    | ⟨0, _⟩ => exact dHost_lhs0 _ _
    | ⟨1, _⟩ => exact (dHost.lhsIdx_val_of_single rfl _ _).trans hk)
  have er : dHost.rhsIdx (ix2 P j) ((contrEquiv1 dHost 4096 rfl rfl).symm k) = ix2 j k := funext fun a => Fin.ext (by
    match a with
    | ⟨0, _⟩ => exact dHost_rhs0 _ _
    | ⟨1, _⟩ => exact (dHost.rhsIdx_val_of_single rfl _ _).trans hk)
  rw [el, er]

variable (m : (ℓ : Loc nD τ sig) → Buf (Elt Ideal) ℓ)

/-! ## What the region finds, from the arguments -/

/-- The activations the region reads are the argument, flattened. -/
theorem actv_eq (c : Dev nD) :
    actv m c = shapeCast S8192x4096 (m ((c : Thread nD τ).loc main_arg0)) shapeCasts_S4x2048x4096_S8192x4096 := by
  unfold actv
  show StableHlo.after hostOps0 (fun b => m (c, b)) (Proc.devRef .tc main_v1) = _
  after_results <;> rfl

/-- The weights the region reads are the argument, block-scaled. -/
theorem wgt_eq (c : Dev nD) :
    wgt m c = dequant (m ((c : Thread nD τ).loc main_arg1)) (m ((c : Thread nD τ).loc main_arg2)) := by
  unfold wgt
  show StableHlo.after hostOps0 (fun b => m (c, b)) (Proc.devRef .tc main_v7) = _
  after_results <;> rfl

/-- The up-projection factor the region reads is the argument. -/
theorem upf_eq (c : Dev nD) : upf m c = m ((c : Thread nD τ).loc main_arg4) := by
  unfold upf
  show StableHlo.after hostOps0 (fun b => m (c, b)) (Proc.devRef .tc main_v9) = _
  after_results <;> rfl

/-- The projected activations the region reads are the host's product of the flattened activations with the
    down-projection factor. -/
theorem proj_eq (c : Dev nD) :
    proj m c = Host.dotGeneral (F := Ideal) (φ₁ := .bf16) (φ₂ := .bf16) dHost none (actv m c) (m ((c : Thread nD τ).loc main_arg3)) := by
  rw [actv_eq]
  unfold proj
  show StableHlo.after hostOps0 (fun b => m (c, b)) (Proc.devRef .tc main_v11) = _
  after_results <;> rfl

/-- Row `2048·b + s` of the flattened activations is `(b, s)` of the argument. -/
theorem actv_entry (c : Dev nD) (b : Fin 4) (s : Fin 2048) (k : Fin 4096) (P : Fin 8192) (hP : P.val = 2048 * b.val + s.val) :
    actv m c (ix2 P k) = (m ((c : Thread nD τ).loc main_arg0) : Ten 4 2048 4096) (ix3 b s k) := by
  rw [actv_eq]
  exact shapeCast_apply _ shapeCasts_S4x2048x4096_S8192x4096 (ix2 P k) (ix3 b s k) (by
    rw [Shape.rowMajor_val_three, Shape.rowMajor_val_two]
    show (b.val * 2048 + s.val) * 4096 + k.val = P.val * 4096 + k.val
    rw [hP]; ring)

/-! ## The program's result -/

/-- The region's result, reshaped to [4,2048,4096]. -/
def out (c : Dev nD) : Buf (Elt Ideal) ((c : Thread nD τ).loc main_v13) :=
  shapeCast S4x2048x4096 (Region.result m c) shapeCasts_S8192x4096_S4x2048x4096

/-- THE RESULT is the layer over the arguments. -/
theorem out_eq (c : Dev nD) :
    out m c = layer3 (m ((c : Thread nD τ).loc main_arg0))
      (dequant (m ((c : Thread nD τ).loc main_arg1)) (m ((c : Thread nD τ).loc main_arg2)))
      (m ((c : Thread nD τ).loc main_arg3)) (m ((c : Thread nD τ).loc main_arg4)) := by
  funext i
  obtain ⟨b, s, o, rfl⟩ : ∃ (b : Fin 4) (s : Fin 2048) (o : Fin 4096), i = ix3 b s o := ⟨i 0, i 1, i 2, eq_ix3 i⟩
  have hb := b.isLt
  have hs := s.isLt
  rw [layer3_apply]
  unfold out
  rw [shapeCast_apply (s := S8192x4096) (t := S4x2048x4096) (Region.result m c) shapeCasts_S8192x4096_S4x2048x4096 (ix3 b s o)
    (ix2 ⟨2048 * b.val + s.val, by omega⟩ o) (by
      rw [Shape.rowMajor_val_three, Shape.rowMajor_val_two]
      show (2048 * b.val + s.val) * 4096 + o.val = (b.val * 2048 + s.val) * 4096 + o.val
      ring)]
  unfold Region.result
  refine (layer_eq_layer3At (actv m c) (wgt m c) (proj m c) (upf m c) (m ((c : Thread nD τ).loc main_arg0))
    (m ((c : Thread nD τ).loc main_arg3)) b s o ⟨2048 * b.val + s.val, by omega⟩
    (fun k => actv_entry m c b s k _ rfl) (fun j => ?_)).trans ?_
  · rw [proj_eq]
    exact host_dot_apply (actv m c) (m ((c : Thread nD τ).loc main_arg3)) _ j
  · rw [wgt_eq, upf_eq]

/-- After the host's last line the program's result buffer holds `out`. -/
theorem tail_eq (c : Dev nD) : Pipeline.afterTail₀ cfgs (dats m) 0 (V0 m) [hostOps1] c main_v13 = out m c := by
  unfold Pipeline.afterTail₀
  show StableHlo.after hostOps1 _ (Proc.devRef .tc main_v13) = _
  after_results
  have e : Pipeline.withArrays (cfgs 0).spec c (V0 m c) (fun w => (dats m 0 c).arrAt w (cfgs 0).N) (Proc.devRef .tc main_v12)
      = Region.result m c :=
    (Pipeline.withArrays_arr spec0 launch0.win.arr_inj c _ _ 4).trans (Region.final m c)
  rw [e]
  rfl

/-- THE RUN, READ: every weakly fair execution of the program terminates with its result buffer at `out` and its five
    argument arrays unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v13) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v13 (Pipeline.mem_restRefs_of main_v13 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Out

end
-- ==== Proof.RefSide.lean ====
/-
  The reference program's result, as the layer over its arguments.

  The reference scales the weights block by block, contracts the batched activations with the scaled weights, contracts
  them with the down-projection factor and the result with the up-projection factor, doubles that and adds. Read one
  operation at a time at an index `(b, s, o)`, that is `Σₖ x[b,s,k]·W[o,k] + 2·Σⱼ (Σₖ x[b,s,k]·D[j,k])·U[o,j]`.
-/
import proofs.«115246_j26422638805106_2_alg».proof.Proof.Gen.ReferenceIdeal.Read
import proofs.«115246_j26422638805106_2_alg».proof.Proof.Layer3

noncomputable section

open scoped BigOperators

namespace Cert.ReferenceIdeal.RefValue

open Cert.ReferenceIdeal Cert.ReferenceIdeal.Gen Cert.ReferenceIdeal.Read Idealize.ShloMosaic Idealize.ShloMosaic.ValueIdx Cert.LoraLinear

/-- The reference's last stage is the layer over the activations, the scaled weights and the two low-rank factors. -/
theorem result_eq (x0 : FVec Ideal S4x2048x4096 .f32) (x1 : FVec Ideal S4096x4096 .f32) (x2 : FVec Ideal S32x32 .f32)
    (x3 : FVec Ideal S16x4096 .f32) (x4 : FVec Ideal S4096x16 .f32) :
    val_main_v10 (F := Ideal) x0 x1 x2 x3 x4 = layer3 x0 (val_main_v4 (F := Ideal) x1 x2) x3 x4 := by
  funext i
  obtain ⟨b, s, o, rfl⟩ : ∃ (b : Fin 4) (s : Fin 2048) (o : Fin 4096), i = ix3 b s o := ⟨i 0, i 1, i 2, eq_ix3 i⟩
  have l5 : ∀ k : Fin 4096, lidx_main_v5 (ix3 b s o) k = ix3 b s k := fun k => funext fun a => by
    match a with | ⟨0, _⟩ => rfl | ⟨1, _⟩ => rfl | ⟨2, _⟩ => rfl
  have r5 : ∀ k : Fin 4096, ridx_main_v5 (ix3 b s o) k = ix2 o k := fun k => funext fun a => by
    match a with | ⟨0, _⟩ => rfl | ⟨1, _⟩ => rfl
  have r7 : ∀ j : Fin 16, ridx_main_v7 (ix3 b s o) j = ix2 o j := fun j => funext fun a => by
    match a with | ⟨0, _⟩ => rfl | ⟨1, _⟩ => rfl
  have l6 : ∀ (j : Fin 16) (k : Fin 4096), lidx_main_v6 (lidx_main_v7 (ix3 b s o) j) k = ix3 b s k := fun j k => funext fun a => by
    match a with | ⟨0, _⟩ => rfl | ⟨1, _⟩ => rfl | ⟨2, _⟩ => rfl
  have r6 : ∀ (j : Fin 16) (k : Fin 4096), ridx_main_v6 (lidx_main_v7 (ix3 b s o) j) k = ix2 j k := fun j k => funext fun a => by
    match a with | ⟨0, _⟩ => rfl | ⟨1, _⟩ => rfl
  rw [layer3_apply]
  unfold layer3At
  rw [val_main_v10_apply, val_main_v5_apply, val_main_v9_apply, val_main_v8_apply, val_main_cst_apply, val_main_v7_apply]
  simp only [val_main_v6_apply, l5, r5, r7, l6, r6, Ideal.addf_def, Ideal.mulf_def, Ideal.ofBits_def]

end Cert.ReferenceIdeal.RefValue

end
-- ==== Proof.lean ====
/-
  A block-scaled linear layer with a rank-16 update: the tiled kernel against the einsum reference, over the extended reals.

  Both programs compute, at batch `b`, position `s`, output feature `o`,
      `Σₖ x[b,s,k]·W[o,k] + 2·Σⱼ (Σₖ x[b,s,k]·D[j,k])·U[o,j]`,
  where `W` is the weight matrix with each [128,128] block multiplied by its entry of the scale table (the same host
  operations in both programs). The kernel flattens `x` to [8192,4096], tiles the output into [2048,512] blocks and
  sweeps the 4096-long contraction in eight stretches of 512 columns, keeping a running sum that starts at zero; after
  the last stretch it adds twice the rank-16 product of the (host-computed) projection `x·Dᵀ` with `U` and writes the
  block back. Over the extended reals addition is associative and commutative, zero is neutral, and a change of float
  format is the identity, so the eight partial sums in order ARE the sum over all 4096 columns, and the two results
  agree entry by entry. No finiteness is needed: no product is distributed over a sum.

  The modules: `Spec` and `Layer3` (the layer as a function of arrays, and dot products that grow one stretch at a
  time), `Payload` (the body's three stored values at an index), `Pieces` and `Sweep` (what each run of the body
  leaves, point by point), `Blocks` (where each block sits in its array), `Accum` (the running sum after each point,
  by induction), `Region` (the 32 written blocks tile the result), `KernelOut` (the host operations around the region
  and the program's result), `RefSide` (the reference read one operation at a time).
-/
import proofs.«115246_j26422638805106_2_alg».proof.Defs
import proofs.«115246_j26422638805106_2_alg».proof.Proof.Gen.Kernel
import proofs.«115246_j26422638805106_2_alg».proof.Proof.Gen.Kernel.Frame
import proofs.«115246_j26422638805106_2_alg».proof.Proof.Gen.KernelIdeal
import proofs.«115246_j26422638805106_2_alg».proof.Proof.Gen.KernelIdeal.Frame
import proofs.«115246_j26422638805106_2_alg».proof.Proof.Gen.ReferenceIdeal
import proofs.«115246_j26422638805106_2_alg».proof.Proof.Gen.ReferenceIdeal.Run
import proofs.«115246_j26422638805106_2_alg».proof.Proof.Gen.ReferenceIdeal.Read
import proofs.«115246_j26422638805106_2_alg».proof.Proof.Gen.Pre_finite_inputs
import proofs.«115246_j26422638805106_2_alg».proof.Proof.KernelOut
import proofs.«115246_j26422638805106_2_alg».proof.Proof.RefSide

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: it runs, and writes none of its arguments. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing of the kernel was rewritten for the reading over the extended reals. -/
theorem preserves : Cert.preserves_Kernel_KernelIdeal := trivial

/-- The two block-scaled weight matrices are one term: the same four layout operations and the same product. -/
theorem dequant_eq (w : FVec Ideal Cert.KernelIdeal.S4096x4096 .f32) (sc : FVec Ideal Cert.KernelIdeal.S32x32 .f32) :
    Cert.KernelIdeal.Out.dequant w sc = Cert.ReferenceIdeal.Read.val_main_v4 (F := Ideal) w sc := rfl

/-- From memories that agree on the five arguments, the kernel's result buffer ends at the layer over them (the
    region's blocks, the host lines around it) and the reference's at the same layer (its operations read in order). -/
theorem algebraic : Cert.algebraic_KernelIdeal_ReferenceIdeal := by
  intro m ρ m' ρ' _ hagree
  refine ⟨fun c => Cert.KernelIdeal.Out.out m c, Cert.KernelIdeal.Out.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq, (hagree c).1, (hagree c).2.1,
    (hagree c).2.2.1, (hagree c).2.2.2.1, (hagree c).2.2.2.2, ← dequant_eq]
  exact (Cert.KernelIdeal.Out.out_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
